-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x576x16384 : Shape := ⟨3, ![16, 576, 16384]⟩
abbrev S_ : Shape := ⟨0, ![]⟩

class Facts : Prop where
  bcast_S_S16x576x16384 : S_.BroadcastsInDim S16x576x16384 (![] : Fin 0 → Fin S16x576x16384.rank)
  reducesTo_S16x576x16384_S_d0_1_2 : S16x576x16384.ReducesTo [0, 1, 2] S_
  h_S_ : 0 < S_.numel

variable [Facts]

def fn {F : FTy → Type} [FloatOps F] (main_arg0 : FVec F S16x576x16384 .f32) : IVec S_ 1 :=
  let main_v0 : FVec F S16x576x16384 .f32 := Host.absf main_arg0
  let main_cst : FVec F S_ .f32 := constant S_ .f32 0x7F800000#32
  let main_v1 : FVec F S16x576x16384 .f32 := broadcastInDim S16x576x16384 ![] bcast_S_S16x576x16384 main_cst
  let main_v2 : IVec S16x576x16384 1 := cmpf .olt main_v0 main_v1
  let main_c : IVec S_ 1 := constantI S_ 1 1#1
  let main_v3 : IVec S_ 1 := (fun x v => Host.reduce IntOp.andi x v reducesTo_S16x576x16384_S_d0_1_2 h_S_) main_v2 main_c
  main_v3
-- ==== Kernel.lean ====
abbrev S16x576x16384 : Shape := ⟨3, ![16, 576, 16384]⟩
abbrev S16x64x9x128x128 : Shape := ⟨5, ![16, 64, 9, 128, 128]⟩
abbrev S16x64x128x128 : Shape := ⟨4, ![16, 64, 128, 128]⟩
abbrev S1x32x9x128x128 : Shape := ⟨5, ![1, 32, 9, 128, 128]⟩
abbrev S1x32x128x128 : Shape := ⟨4, ![1, 32, 128, 128]⟩
abbrev S32x128x128 : Shape := ⟨3, ![32, 128, 128]⟩
abbrev S1x32x1x128x128 : Shape := ⟨5, ![1, 32, 1, 128, 128]⟩
abbrev S32x1x128 : Shape := ⟨3, ![32, 1, 128]⟩
abbrev S32x129x128 : Shape := ⟨3, ![32, 129, 128]⟩
abbrev S32x130x128 : Shape := ⟨3, ![32, 130, 128]⟩
abbrev S32x130x1 : Shape := ⟨3, ![32, 130, 1]⟩
abbrev S32x130x129 : Shape := ⟨3, ![32, 130, 129]⟩
abbrev S32x130x130 : Shape := ⟨3, ![32, 130, 130]⟩

abbrev nBuf : Space → Nat
  | .hbm => 3
  | .vmem => 4
  | .smem => 0
  | _ => 0

abbrev bufTy : (tb : Table) → Fin (tcTables nBuf tb) → BufTy
  | .hbm, ⟨0, _⟩ => ⟨S16x576x16384, .f32⟩
  | .hbm, ⟨1, _⟩ => ⟨S16x64x9x128x128, .f32⟩
  | .hbm, ⟨2, _⟩ => ⟨S16x64x128x128, .f32⟩
  | .local _ .vmem, ⟨0, _⟩ => ⟨S1x32x9x128x128, .f32⟩
  | .local _ .vmem, ⟨1, _⟩ => ⟨S1x32x9x128x128, .f32⟩
  | .local _ .vmem, ⟨2, _⟩ => ⟨S1x32x128x128, .f32⟩
  | .local _ .vmem, ⟨3, _⟩ => ⟨S1x32x128x128, .f32⟩
  | _, _ => ⟨S16x576x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x9x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x576x16384_S16x64x9x128x128 : S16x576x16384.ShapeCasts S16x64x9x128x128
  inb_S1x32x9x128x128_S1x32x1x128x128_0_0_0_0_0 : ∀ a, (![0, 0, 0, 0, 0] : Fin 5 → Nat) a + S1x32x1x128x128.size a ≤ S1x32x9x128x128.size a
  h_S1x32x1x128x128 : 0 < S1x32x1x128x128.numel
  shapeCasts_S1x32x1x128x128_S32x128x128 : S1x32x1x128x128.ShapeCasts S32x128x128
  concatenates_S32x1x128_S32x128x128_S32x129x128_d1 : Shape.Concatenates [S32x1x128, S32x128x128] S32x129x128 1
  concatenates_S32x129x128_S32x1x128_S32x130x128_d1 : Shape.Concatenates [S32x129x128, S32x1x128] S32x130x128 1
  concatenates_S32x130x1_S32x130x128_S32x130x129_d2 : Shape.Concatenates [S32x130x1, S32x130x128] S32x130x129 2
  concatenates_S32x130x129_S32x130x1_S32x130x130_d2 : Shape.Concatenates [S32x130x129, S32x130x1] S32x130x130 2
  slices_S32x130x130_o0_2_2_S32x128x128 : S32x130x130.Slices ![0, 2, 2] S32x128x128
  inb_S1x32x9x128x128_S1x32x1x128x128_0_0_1_0_0 : ∀ a, (![0, 0, 1, 0, 0] : Fin 5 → Nat) a + S1x32x1x128x128.size a ≤ S1x32x9x128x128.size a
  slices_S32x130x130_o0_2_1_S32x128x128 : S32x130x130.Slices ![0, 2, 1] S32x128x128
  inb_S1x32x9x128x128_S1x32x1x128x128_0_0_2_0_0 : ∀ a, (![0, 0, 2, 0, 0] : Fin 5 → Nat) a + S1x32x1x128x128.size a ≤ S1x32x9x128x128.size a
  slices_S32x130x130_o0_2_0_S32x128x128 : S32x130x130.Slices ![0, 2, 0] S32x128x128
  inb_S1x32x9x128x128_S1x32x1x128x128_0_0_3_0_0 : ∀ a, (![0, 0, 3, 0, 0] : Fin 5 → Nat) a + S1x32x1x128x128.size a ≤ S1x32x9x128x128.size a
  slices_S32x130x130_o0_1_2_S32x128x128 : S32x130x130.Slices ![0, 1, 2] S32x128x128
  inb_S1x32x9x128x128_S1x32x1x128x128_0_0_4_0_0 : ∀ a, (![0, 0, 4, 0, 0] : Fin 5 → Nat) a + S1x32x1x128x128.size a ≤ S1x32x9x128x128.size a
  slices_S32x130x130_o0_1_1_S32x128x128 : S32x130x130.Slices ![0, 1, 1] S32x128x128
  inb_S1x32x9x128x128_S1x32x1x128x128_0_0_5_0_0 : ∀ a, (![0, 0, 5, 0, 0] : Fin 5 → Nat) a + S1x32x1x128x128.size a ≤ S1x32x9x128x128.size a
  slices_S32x130x130_o0_1_0_S32x128x128 : S32x130x130.Slices ![0, 1, 0] S32x128x128
  inb_S1x32x9x128x128_S1x32x1x128x128_0_0_6_0_0 : ∀ a, (![0, 0, 6, 0, 0] : Fin 5 → Nat) a + S1x32x1x128x128.size a ≤ S1x32x9x128x128.size a
  slices_S32x130x130_o0_0_2_S32x128x128 : S32x130x130.Slices ![0, 0, 2] S32x128x128
  inb_S1x32x9x128x128_S1x32x1x128x128_0_0_7_0_0 : ∀ a, (![0, 0, 7, 0, 0] : Fin 5 → Nat) a + S1x32x1x128x128.size a ≤ S1x32x9x128x128.size a
  slices_S32x130x130_o0_0_1_S32x128x128 : S32x130x130.Slices ![0, 0, 1] S32x128x128
  inb_S1x32x9x128x128_S1x32x1x128x128_0_0_8_0_0 : ∀ a, (![0, 0, 8, 0, 0] : Fin 5 → Nat) a + S1x32x1x128x128.size a ≤ S1x32x9x128x128.size a
  slices_S32x130x130_o0_0_0_S32x128x128 : S32x130x130.Slices ![0, 0, 0] S32x128x128
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x9x128x128.size a ≤ S16x64x9x128x128.size a
  hwx0_0 : ∀ i : grid0.Coords, EltTy.bits .f32 = 32 ∨ (Rect.block (s := S16x64x9x128x128) S1x32x9x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x128.size a ≤ S16x64x128x128.size a
  hwx0_1 : ∀ i : grid0.Coords, EltTy.bits .f32 = 32 ∨ (Rect.block (s := S16x64x128x128) S1x32x128x128.size (cc0_transform_1 i) (hinb0_1 i)).WholeWords (EltTy.packing .f32)

variable [Facts₀]

abbrev win0_0 : Pipeline.Window sig grid0 :=
  Pipeline.Window.ofSpec (Memref.whole main_v0) S1x32x9x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x576x16384 : Shape := ⟨3, ![16, 576, 16384]⟩
abbrev S3 : Shape := ⟨1, ![3]⟩
abbrev S3x1 : Shape := ⟨2, ![3, 1]⟩
abbrev S_ : Shape := ⟨0, ![]⟩
abbrev S128 : Shape := ⟨1, ![128]⟩
abbrev S1x128 : Shape := ⟨2, ![1, 128]⟩
abbrev S3x128 : Shape := ⟨2, ![3, 128]⟩
abbrev S3x1x128x1 : Shape := ⟨4, ![3, 1, 128, 1]⟩
abbrev S1x3x1x128 : Shape := ⟨4, ![1, 3, 1, 128]⟩
abbrev S3x3x128x128 : Shape := ⟨4, ![3, 3, 128, 128]⟩
abbrev S147456 : Shape := ⟨1, ![147456]⟩
abbrev S16x64x147456 : Shape := ⟨3, ![16, 64, 147456]⟩
abbrev S16x64x16900 : Shape := ⟨3, ![16, 64, 16900]⟩
abbrev S147456x1 : Shape := ⟨2, ![147456, 1]⟩
abbrev S16x64x130x130 : Shape := ⟨4, ![16, 64, 130, 130]⟩
abbrev S16x64x128x128 : Shape := ⟨4, ![16, 64, 128, 128]⟩

abbrev nBuf : Space → Nat
  | .hbm => 50
  | .vmem => 0
  | .smem => 0
  | _ => 0

abbrev bufTy : (tb : Table) → Fin (tcTables nBuf tb) → BufTy
  | .hbm, ⟨0, _⟩ => ⟨S16x576x16384, .f32⟩
  | .hbm, ⟨1, _⟩ => ⟨S3, .i32⟩
  | .hbm, ⟨2, _⟩ => ⟨S3x1, .i32⟩
  | .hbm, ⟨3, _⟩ => ⟨S_, .i32⟩
  | .hbm, ⟨4, _⟩ => ⟨S3x1, .i32⟩
  | .hbm, ⟨5, _⟩ => ⟨S3x1, .i32⟩
  | .hbm, ⟨6, _⟩ => ⟨S128, .i32⟩
  | .hbm, ⟨7, _⟩ => ⟨S1x128, .i32⟩
  | .hbm, ⟨8, _⟩ => ⟨S_, .i32⟩
  | .hbm, ⟨9, _⟩ => ⟨S1x128, .i32⟩
  | .hbm, ⟨10, _⟩ => ⟨S1x128, .i32⟩
  | .hbm, ⟨11, _⟩ => ⟨S3x128, .i32⟩
  | .hbm, ⟨12, _⟩ => ⟨S3x128, .i32⟩
  | .hbm, ⟨13, _⟩ => ⟨S3x128, .i32⟩
  | .hbm, ⟨14, _⟩ => ⟨S3, .i32⟩
  | .hbm, ⟨15, _⟩ => ⟨S3x1, .i32⟩
  | .hbm, ⟨16, _⟩ => ⟨S_, .i32⟩
  | .hbm, ⟨17, _⟩ => ⟨S3x1, .i32⟩
  | .hbm, ⟨18, _⟩ => ⟨S3x1, .i32⟩
  | .hbm, ⟨19, _⟩ => ⟨S128, .i32⟩
  | .hbm, ⟨20, _⟩ => ⟨S1x128, .i32⟩
  | .hbm, ⟨21, _⟩ => ⟨S_, .i32⟩
  | .hbm, ⟨22, _⟩ => ⟨S1x128, .i32⟩
  | .hbm, ⟨23, _⟩ => ⟨S1x128, .i32⟩
  | .hbm, ⟨24, _⟩ => ⟨S3x128, .i32⟩
  | .hbm, ⟨25, _⟩ => ⟨S3x128, .i32⟩
  | .hbm, ⟨26, _⟩ => ⟨S3x128, .i32⟩
  | .hbm, ⟨27, _⟩ => ⟨S3x1x128x1, .i32⟩
  | .hbm, ⟨28, _⟩ => ⟨S_, .i32⟩
  | .hbm, ⟨29, _⟩ => ⟨S3x1x128x1, .i32⟩
  | .hbm, ⟨30, _⟩ => ⟨S3x1x128x1, .i32⟩
  | .hbm, ⟨31, _⟩ => ⟨S1x3x1x128, .i32⟩
  | .hbm, ⟨32, _⟩ => ⟨S3x3x128x128, .i32⟩
  | .hbm, ⟨33, _⟩ => ⟨S3x3x128x128, .i32⟩
  | .hbm, ⟨34, _⟩ => ⟨S3x3x128x128, .i32⟩
  | .hbm, ⟨35, _⟩ => ⟨S147456, .i32⟩
  | .hbm, ⟨36, _⟩ => ⟨S16x64x147456, .f32⟩
  | .hbm, ⟨37, _⟩ => ⟨S_, .f32⟩
  | .hbm, ⟨38, _⟩ => ⟨S16x64x16900, .f32⟩
  | .hbm, ⟨39, _⟩ => ⟨S_, .i32⟩
  | .hbm, ⟨40, _⟩ => ⟨S147456, .i32⟩
  | .hbm, ⟨41, _⟩ => ⟨S147456, .i1⟩
  | .hbm, ⟨42, _⟩ => ⟨S_, .i32⟩
  | .hbm, ⟨43, _⟩ => ⟨S147456, .i32⟩
  | .hbm, ⟨44, _⟩ => ⟨S147456, .i32⟩
  | .hbm, ⟨45, _⟩ => ⟨S147456, .i32⟩
  | .hbm, ⟨46, _⟩ => ⟨S147456x1, .i32⟩
  | .hbm, ⟨47, _⟩ => ⟨S16x64x16900, .f32⟩
  | .hbm, ⟨48, _⟩ => ⟨S16x64x130x130, .f32⟩
  | .hbm, ⟨49, _⟩ => ⟨S16x64x128x128, .f32⟩
  | _, _ => ⟨S16x576x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_3 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_v31 : Ref sig .tc := ⟨.hbm, 38, rfl⟩
abbrev main_c_4 : Ref sig .tc := ⟨.hbm, 39, rfl⟩
abbrev main_v32 : Ref sig .tc := ⟨.hbm, 40, rfl⟩
abbrev main_v33 : Ref sig .tc := ⟨.hbm, 41, rfl⟩
abbrev main_c_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]

class Facts₀ : Prop where
  bcast_S3_S3x1_0 : S3.BroadcastsInDim S3x1 (![0] : Fin 1 → Fin S3x1.rank)
  bcast_S_S3x1 : S_.BroadcastsInDim S3x1 (![] : Fin 0 → Fin S3x1.rank)
  bcast_S128_S1x128_1 : S128.BroadcastsInDim S1x128 (![1] : Fin 1 → Fin S1x128.rank)
  bcast_S_S1x128 : S_.BroadcastsInDim S1x128 (![] : Fin 0 → Fin S1x128.rank)
  bcast_S3x1_S3x128_0_1 : S3x1.BroadcastsInDim S3x128 (![0, 1] : Fin 2 → Fin S3x128.rank)
  bcast_S1x128_S3x128_0_1 : S1x128.BroadcastsInDim S3x128 (![0, 1] : Fin 2 → Fin S3x128.rank)
  bcast_S3x128_S3x1x128x1_0_2 : S3x128.BroadcastsInDim S3x1x128x1 (![0, 2] : Fin 2 → Fin S3x1x128x1.rank)
  bcast_S_S3x1x128x1 : S_.BroadcastsInDim S3x1x128x1 (![] : Fin 0 → Fin S3x1x128x1.rank)
  bcast_S3x128_S1x3x1x128_1_3 : S3x128.BroadcastsInDim S1x3x1x128 (![1, 3] : Fin 2 → Fin S1x3x1x128.rank)
  bcast_S3x1x128x1_S3x3x128x128_0_1_2_3 : S3x1x128x1.BroadcastsInDim S3x3x128x128 (![0, 1, 2, 3] : Fin 4 → Fin S3x3x128x128.rank)
  bcast_S1x3x1x128_S3x3x128x128_0_1_2_3 : S1x3x1x128.BroadcastsInDim S3x3x128x128 (![0, 1, 2, 3] : Fin 4 → Fin S3x3x128x128.rank)
  shapeCasts_S3x3x128x128_S147456 : S3x3x128x128.ShapeCasts S147456
  shapeCasts_S16x576x16384_S16x64x147456 : S16x576x16384.ShapeCasts S16x64x147456
  bcast_S_S16x64x16900 : S_.BroadcastsInDim S16x64x16900 (![] : Fin 0 → Fin S16x64x16900.rank)
  bcast_S_S147456 : S_.BroadcastsInDim S147456 (![] : Fin 0 → Fin S147456.rank)
  bcast_S147456_S147456x1_0 : S147456.BroadcastsInDim S147456x1 (![0] : Fin 1 → Fin S147456x1.rank)
  shapeCasts_S16x64x16900_S16x64x130x130 : S16x64x16900.ShapeCasts S16x64x130x130
  slices_S16x64x130x130_S16x64x128x128_0_0_1_1 : S16x64x130x130.Slices ![0, 0, 1, 1] S16x64x128x128
  scatter_S16x64x16900_S147456x1_S16x64x147456_01_2_2_1_wf : ScatterDims.WF S16x64x16900 S147456x1 S16x64x147456 [0, 1] [2] [2] 1

variable [Facts₀]

def scatter_S16x64x16900_S147456x1_S16x64x147456_01_2_2_1 : ScatterDims S16x64x16900 S147456x1 S16x64x147456 where
  updateWindowDims := [0, 1]
  insertedWindowDims := [2]
  scatterDimsToOperandDims := [2]
  indexVectorDim := 1
  wf := scatter_S16x64x16900_S147456x1_S16x64x147456_01_2_2_1_wf

class Facts : Prop extends Facts₀ where

variable [Facts]
-- ==== Proof.Spec.lean ====
/-
  The fold (col2im) of 3×3 patches with padding 1, stride 1, as one function of the patch array.

  The argument is x[b, c·9 + kk, lh·128 + lw] with kk = 3·kh + kw a tap of the 3×3 window and (lh, lw) a position of the
  128×128 grid of patches. Patch (lh, lw) laid on the padded 130×130 canvas covers rows lh … lh+2 and columns lw … lw+2, tap
  (kh, kw) landing on canvas cell (lh + kh, lw + kw). Output cell (h, w) is canvas cell (h + 1, w + 1), so it receives, from tap
  (kh, kw), the patch at (h + 1 − kh, w + 1 − kw) when that position exists:

      out[b, c, h, w] = ∑ kh kw, [kh ≤ h + 1 ∧ h + 1 − kh < 128 ∧ kw ≤ w + 1 ∧ w + 1 − kw < 128] · x[b, c·9 + 3·kh + kw, (h + 1 − kh)·128 + (w + 1 − kw)].
-/
import Idealize.ShloMosaic.PureOps.Ideal
import Idealize.ShloMosaic.Lib.ValueIdx

noncomputable section

open scoped BigOperators

namespace Cert.Fold

open Idealize.ShloMosaic Idealize.ShloMosaic.ValueIdx

/-- The patch array's shape and the folded image's. -/
abbrev SIn : Shape := ⟨3, ![16, 576, 16384]⟩
abbrev SOut : Shape := ⟨4, ![16, 64, 128, 128]⟩

/-- The patch array read by coordinates (batch, channel, tap, patch row, patch column); zero when a coordinate is out of range. -/
def rd (x : SIn.Idx → EReal) (b c kk lh lw : ℕ) : EReal :=
  if h : b < 16 ∧ c < 64 ∧ kk < 9 ∧ lh < 128 ∧ lw < 128 then
    x (ix3 (⟨b, h.1⟩ : Fin 16) (⟨c * 9 + kk, by omega⟩ : Fin 576) (⟨lh * 128 + lw, by omega⟩ : Fin 16384))
  else 0

/-- What tap (kh, kw) contributes to output cell (h, w): the patch one canvas step up-left per tap step, when there is one. -/
def tap (x : SIn.Idx → EReal) (b c h w : ℕ) (kh kw : Fin 3) : EReal :=
  if kh.val ≤ h + 1 ∧ kw.val ≤ w + 1 then rd x b c (3 * kh.val + kw.val) (h + 1 - kh.val) (w + 1 - kw.val) else 0

/-- The folded image: each cell the sum of its nine taps. -/
def G (x : SIn.Idx → EReal) : SOut.Idx → EReal := fun i =>
  ∑ kh : Fin 3, ∑ kw : Fin 3, tap x (i 0).val (i 1).val (i 2).val (i 3).val kh kw

theorem rd_eq_zero (x : SIn.Idx → EReal) (b c kk lh lw : ℕ) (h : ¬ (lh < 128 ∧ lw < 128)) : rd x b c kk lh lw = 0 := by
  unfold rd; rw [dif_neg]; intro h'; exact h ⟨h'.2.2.2.1, h'.2.2.2.2⟩

end Cert.Fold

end
-- ==== Proof.Taps.lean ====
/-
  One block of the kernel's result, read at an index.

  The body takes the nine 32×128×128 slabs of its input block (one per tap), surrounds each with a border of zeros
  (a 130×130 canvas per channel: the slab sits at rows and columns 1 … 128), cuts the 128×128 window at offset
  (2 − kh, 2 − kw) out of tap (kh, kw)'s canvas, and adds the nine windows to a zero accumulator in tap order.
  So the block at (c, h, w) is the left-nested sum of the nine canvases read at (h + 2 − kh, w + 2 − kw).
-/
import proofs.«161328_j57363583205829_1_alg».proof.Proof.Gen.KernelIdeal.Value
import Idealize.ShloMosaic.Lib.ValueIdx
import Idealize.ShloMosaic.Lib.Pipeline.Value
import Idealize.ShloMosaic.Lib.KernelVsHost

noncomputable section

namespace Cert.Fold.Taps

open Idealize.ShloMosaic Idealize.ShloMosaic.ValueIdx Cert.KernelIdeal Cert.KernelIdeal.Gen

/-- A slab on its zero-bordered canvas: canvas cell (i, j) of channel c is slab cell (i − 1, j − 1) for 1 ≤ i, j ≤ 128, zero on the border (and beyond). -/
def padRead (P : Vec Ideal S1x32x1x128x128 .f32) (c i j : ℕ) : EReal :=
  if h : c < 32 ∧ 1 ≤ i ∧ i ≤ 128 ∧ 1 ≤ j ∧ j ≤ 128 then
    P (ix5 (0 : Fin 1) (⟨c, h.1⟩ : Fin 32) (0 : Fin 1) (⟨i - 1, by omega⟩ : Fin 128) (⟨j - 1, by omega⟩ : Fin 128))
  else 0

/-- The bordered canvas of a slab as the body builds it: the slab viewed 32×128×128, a row of `z` put above it and a row below
    (axis 1), then a column of `z` put to its left and a column to its right (axis 2). -/
abbrev canvas (z : Ideal .f32) (P : Vec Ideal S1x32x1x128x128 .f32) : FVec Ideal S32x130x130 .f32 :=
  concatenate S32x130x130 2
    [⟨S32x130x129, concatenate S32x130x129 2
      [⟨S32x130x1, broadcast S32x130x1 z⟩,
       ⟨S32x130x128, concatenate S32x130x128 1
         [⟨S32x129x128, concatenate S32x129x128 1
           [⟨S32x1x128, broadcast S32x1x128 z⟩,
            ⟨S32x128x128, shapeCast S32x128x128 P shapeCasts_S1x32x1x128x128_S32x128x128⟩]
           concatenates_S32x1x128_S32x128x128_S32x129x128_d1⟩,
          ⟨S32x1x128, broadcast S32x1x128 z⟩]
         concatenates_S32x129x128_S32x1x128_S32x130x128_d1⟩]
      concatenates_S32x130x1_S32x130x128_S32x130x129_d2⟩,
     ⟨S32x130x1, broadcast S32x130x1 z⟩]
    concatenates_S32x130x129_S32x130x1_S32x130x130_d2

/-- The canvas read at (c, i, j): the slab at (c, i − 1, j − 1) when 1 ≤ i, j ≤ 128, the border value `z` otherwise. -/
theorem canvas_apply (z : Ideal .f32) (P : Vec Ideal S1x32x1x128x128 .f32) (c : Fin 32) (i j : Fin 130) :
    canvas z P (ix3 c i j) =
      if h : 1 ≤ i.val ∧ i.val ≤ 128 ∧ 1 ≤ j.val ∧ j.val ≤ 128 then
        P (ix5 (0 : Fin 1) c (0 : Fin 1) (⟨i.val - 1, by omega⟩ : Fin 128) (⟨j.val - 1, by omega⟩ : Fin 128))
      else z := by
  have hi := i.isLt
  have hj := j.isLt
  by_cases hj129 : j.val < 129
  · -- the column is not the right border
    refine (concatenate_pair_apply_left (t := S32x130x130) (s₁ := S32x130x129) (s₂ := S32x130x1) 2 _ _
      concatenates_S32x130x129_S32x130x1_S32x130x130_d2 (ix3 c i j) rfl
      (ix3 c i (⟨j.val, hj129⟩ : Fin 129)) (fun b => match b with | ⟨0, _⟩ => rfl | ⟨1, _⟩ => rfl | ⟨2, _⟩ => rfl)).trans ?_
    by_cases hj1 : j.val < 1
    · -- the left border
      refine (concatenate_pair_apply_left (t := S32x130x129) (s₁ := S32x130x1) (s₂ := S32x130x128) 2 _ _
        concatenates_S32x130x1_S32x130x128_S32x130x129_d2 (ix3 c i (⟨j.val, hj129⟩ : Fin 129)) rfl
        (ix3 c i (⟨j.val, hj1⟩ : Fin 1)) (fun b => match b with | ⟨0, _⟩ => rfl | ⟨1, _⟩ => rfl | ⟨2, _⟩ => rfl)).trans ?_
      rw [dif_neg (by omega)]
      rfl
    · refine (concatenate_pair_apply_right (t := S32x130x129) (s₁ := S32x130x1) (s₂ := S32x130x128) 2 _ _
        concatenates_S32x130x1_S32x130x128_S32x130x129_d2 (ix3 c i (⟨j.val, hj129⟩ : Fin 129)) rfl rfl
        (ix3 c i (⟨j.val - 1, by omega⟩ : Fin 128))
        (fun b hb => match b, hb with | ⟨0, _⟩, _ => rfl | ⟨1, _⟩, _ => rfl | ⟨2, _⟩, hb => absurd rfl hb)
        (by show (j.val - 1) + 1 = j.val; omega)).trans ?_
      by_cases hi129 : i.val < 129
      · -- the row is not the bottom border
        refine (concatenate_pair_apply_left (t := S32x130x128) (s₁ := S32x129x128) (s₂ := S32x1x128) 1 _ _
          concatenates_S32x129x128_S32x1x128_S32x130x128_d1 (ix3 c i (⟨j.val - 1, by omega⟩ : Fin 128)) rfl
          (ix3 c (⟨i.val, hi129⟩ : Fin 129) (⟨j.val - 1, by omega⟩ : Fin 128))
          (fun b => match b with | ⟨0, _⟩ => rfl | ⟨1, _⟩ => rfl | ⟨2, _⟩ => rfl)).trans ?_
        by_cases hi1 : i.val < 1
        · -- the top border
          refine (concatenate_pair_apply_left (t := S32x129x128) (s₁ := S32x1x128) (s₂ := S32x128x128) 1 _ _
            concatenates_S32x1x128_S32x128x128_S32x129x128_d1
            (ix3 c (⟨i.val, hi129⟩ : Fin 129) (⟨j.val - 1, by omega⟩ : Fin 128)) rfl
            (ix3 c (⟨i.val, hi1⟩ : Fin 1) (⟨j.val - 1, by omega⟩ : Fin 128))
            (fun b => match b with | ⟨0, _⟩ => rfl | ⟨1, _⟩ => rfl | ⟨2, _⟩ => rfl)).trans ?_
          rw [dif_neg (by omega)]
          rfl
        · -- inside: the slab, whose row-major position is the same in both views
          refine (concatenate_pair_apply_right (t := S32x129x128) (s₁ := S32x1x128) (s₂ := S32x128x128) 1 _ _
            concatenates_S32x1x128_S32x128x128_S32x129x128_d1
            (ix3 c (⟨i.val, hi129⟩ : Fin 129) (⟨j.val - 1, by omega⟩ : Fin 128)) rfl rfl
            (ix3 c (⟨i.val - 1, by omega⟩ : Fin 128) (⟨j.val - 1, by omega⟩ : Fin 128))
            (fun b hb => match b, hb with | ⟨0, _⟩, _ => rfl | ⟨1, _⟩, hb => absurd rfl hb | ⟨2, _⟩, _ => rfl)
            (by show (i.val - 1) + 1 = i.val; omega)).trans ?_
          rw [dif_pos (by omega)]
          exact shapeCast_apply _ _ _ _ (by
            rw [Shape.rowMajor_val_five, Shape.rowMajor_val_three]
            show ((((0 : Fin 1).val * 32 + c.val) * 1 + (0 : Fin 1).val) * 128 + (i.val - 1)) * 128 + (j.val - 1)
              = (c.val * 128 + (i.val - 1)) * 128 + (j.val - 1)
            show ((((0 * 32 + c.val) * 1 + 0) * 128 + (i.val - 1)) * 128 + (j.val - 1))
              = (c.val * 128 + (i.val - 1)) * 128 + (j.val - 1)
            omega)
      · -- the bottom border
        refine (concatenate_pair_apply_right (t := S32x130x128) (s₁ := S32x129x128) (s₂ := S32x1x128) 1 _ _
          concatenates_S32x129x128_S32x1x128_S32x130x128_d1 (ix3 c i (⟨j.val - 1, by omega⟩ : Fin 128)) rfl rfl
          (ix3 c (⟨i.val - 129, by omega⟩ : Fin 1) (⟨j.val - 1, by omega⟩ : Fin 128))
          (fun b hb => match b, hb with | ⟨0, _⟩, _ => rfl | ⟨1, _⟩, hb => absurd rfl hb | ⟨2, _⟩, _ => rfl)
          (by show (i.val - 129) + 129 = i.val; omega)).trans ?_
        rw [dif_neg (by omega)]
        rfl
  · -- the right border
    refine (concatenate_pair_apply_right (t := S32x130x130) (s₁ := S32x130x129) (s₂ := S32x130x1) 2 _ _
      concatenates_S32x130x129_S32x130x1_S32x130x130_d2 (ix3 c i j) rfl rfl
      (ix3 c i (⟨j.val - 129, by omega⟩ : Fin 1))
      (fun b hb => match b, hb with | ⟨0, _⟩, _ => rfl | ⟨1, _⟩, _ => rfl | ⟨2, _⟩, hb => absurd rfl hb)
      (by show (j.val - 129) + 129 = j.val; omega)).trans ?_
    rw [dif_neg (by omega)]
    rfl

/-- The 128×128 window cut out of a slab's canvas at offset (r, s), read at (c, h, w), is the canvas cell (h + r, w + s) of channel c. -/
theorem tap_apply (z : Ideal .f32) (hz : z = 0) (P : Vec Ideal S1x32x1x128x128 .f32) (off : Fin 3 → Nat)
    (hs : S32x130x130.Slices off S32x128x128) (r s : ℕ) (h0 : off 0 = 0) (h1 : off 1 = r) (h2 : off 2 = s)
    (j : S32x128x128.Idx) :
    extractStridedSlice S32x128x128 off (canvas z P) hs j = padRead P (j 0).val ((j 1).val + r) ((j 2).val + s) := by
  have hj0 : (j 0).val < 32 := (j 0).isLt
  have hj1 : (j 1).val < 128 := (j 1).isLt
  have hj2 : (j 2).val < 128 := (j 2).isLt
  have hr : off 1 + 128 ≤ 130 := hs.2 1
  have hc : off 2 + 128 ≤ 130 := hs.2 2
  refine (extractStridedSlice_apply off (canvas z P) hs j
    (ix3 (⟨(j 0).val, hj0⟩ : Fin 32) (⟨(j 1).val + r, by omega⟩ : Fin 130) (⟨(j 2).val + s, by omega⟩ : Fin 130))
    (fun a => match a with
      | ⟨0, _⟩ => by show (j 0).val = off 0 + (j 0).val; omega
      | ⟨1, _⟩ => by show (j 1).val + r = off 1 + (j 1).val; omega
      | ⟨2, _⟩ => by show (j 2).val + s = off 2 + (j 2).val; omega)).trans ?_
  rw [canvas_apply]
  unfold padRead
  by_cases hin : 1 ≤ (j 1).val + r ∧ (j 1).val + r ≤ 128 ∧ 1 ≤ (j 2).val + s ∧ (j 2).val + s ≤ 128
  · rw [dif_pos hin, dif_pos ⟨hj0, hin⟩]
  · rw [dif_neg hin, dif_neg (fun h => hin h.2), hz]

/-- The border value the body uses (the integer 0 converted) is 0. -/
theorem border_zero : (Scalar.sitofp .f32 0#32 : Ideal .f32) = 0 := sitofp_zero

/-- The first two taps: zero plus the windows of slabs 0 and 1 at offsets (2, 2) and (2, 1). -/
theorem pay2_apply (P0 P1 : Vec Ideal S1x32x1x128x128 .f32) (j : S32x128x128.Idx) :
    k0_pay2 (F := Ideal) P0 P1 j =
      0 + padRead P0 (j 0).val ((j 1).val + 2) ((j 2).val + 2) + padRead P1 (j 0).val ((j 1).val + 2) ((j 2).val + 1) := by
  show addf (addf (broadcast S32x128x128 (Scalar.ofBits .f32 0x00000000#32 : Ideal .f32))
      (extractStridedSlice S32x128x128 ![0, 2, 2] (canvas (Scalar.sitofp .f32 0#32) P0) slices_S32x130x130_o0_2_2_S32x128x128))
      (extractStridedSlice S32x128x128 ![0, 2, 1] (canvas (Scalar.sitofp .f32 0#32) P1) slices_S32x130x130_o0_2_1_S32x128x128) j = _
  rw [addf_apply, addf_apply, broadcast_apply, Ideal.ofBits_def, Ideal.ofBits_zero_f32,
    tap_apply _ border_zero P0 ![0, 2, 2] slices_S32x130x130_o0_2_2_S32x128x128 2 2 rfl rfl rfl j,
    tap_apply _ border_zero P1 ![0, 2, 1] slices_S32x130x130_o0_2_1_S32x128x128 2 1 rfl rfl rfl j]

/-- The third tap: the window of slab 2 at offset (2, 0). -/
theorem pay3_apply (P2 : Vec Ideal S1x32x1x128x128 .f32) (j : S32x128x128.Idx) :
    k0_pay3 (F := Ideal) P2 j = padRead P2 (j 0).val ((j 1).val + 2) (j 2).val := by
  show extractStridedSlice S32x128x128 ![0, 2, 0] (canvas (Scalar.sitofp .f32 0#32) P2) slices_S32x130x130_o0_2_0_S32x128x128 j = _
  rw [tap_apply _ border_zero P2 ![0, 2, 0] slices_S32x130x130_o0_2_0_S32x128x128 2 0 rfl rfl rfl j]
  simp only [Nat.add_zero]

/-- Taps 3 to 5 added to the running sum: the windows of slabs 3, 4, 5 at offsets (1, 2), (1, 1), (1, 0). -/
theorem pay4_apply (A B : FVec Ideal S32x128x128 .f32) (P3 P4 P5 : Vec Ideal S1x32x1x128x128 .f32) (j : S32x128x128.Idx) :
    k0_pay4 (F := Ideal) A B P3 P4 P5 j =
      A j + B j + padRead P3 (j 0).val ((j 1).val + 1) ((j 2).val + 2) + padRead P4 (j 0).val ((j 1).val + 1) ((j 2).val + 1)
        + padRead P5 (j 0).val ((j 1).val + 1) (j 2).val := by
  show addf (addf (addf (addf A B)
      (extractStridedSlice S32x128x128 ![0, 1, 2] (canvas (Scalar.sitofp .f32 0#32) P3) slices_S32x130x130_o0_1_2_S32x128x128))
      (extractStridedSlice S32x128x128 ![0, 1, 1] (canvas (Scalar.sitofp .f32 0#32) P4) slices_S32x130x130_o0_1_1_S32x128x128))
      (extractStridedSlice S32x128x128 ![0, 1, 0] (canvas (Scalar.sitofp .f32 0#32) P5) slices_S32x130x130_o0_1_0_S32x128x128) j = _
  rw [addf_apply, addf_apply, addf_apply, addf_apply,
    tap_apply _ border_zero P3 ![0, 1, 2] slices_S32x130x130_o0_1_2_S32x128x128 1 2 rfl rfl rfl j,
    tap_apply _ border_zero P4 ![0, 1, 1] slices_S32x130x130_o0_1_1_S32x128x128 1 1 rfl rfl rfl j,
    tap_apply _ border_zero P5 ![0, 1, 0] slices_S32x130x130_o0_1_0_S32x128x128 1 0 rfl rfl rfl j]
  simp only [Nat.add_zero]

/-- Taps 6 to 8 added to the running sum: the windows of slabs 6, 7, 8 at offsets (0, 2), (0, 1), (0, 0). -/
theorem pay5_apply (A : FVec Ideal S32x128x128 .f32) (P6 P7 P8 : Vec Ideal S1x32x1x128x128 .f32) (j : S32x128x128.Idx) :
    k0_pay5 (F := Ideal) A P6 P7 P8 j =
      A j + padRead P6 (j 0).val (j 1).val ((j 2).val + 2) + padRead P7 (j 0).val (j 1).val ((j 2).val + 1)
        + padRead P8 (j 0).val (j 1).val (j 2).val := by
  show addf (addf (addf A
      (extractStridedSlice S32x128x128 ![0, 0, 2] (canvas (Scalar.sitofp .f32 0#32) P6) slices_S32x130x130_o0_0_2_S32x128x128))
      (extractStridedSlice S32x128x128 ![0, 0, 1] (canvas (Scalar.sitofp .f32 0#32) P7) slices_S32x130x130_o0_0_1_S32x128x128))
      (extractStridedSlice S32x128x128 ![0, 0, 0] (canvas (Scalar.sitofp .f32 0#32) P8) slices_S32x130x130_o0_0_0_S32x128x128) j = _
  rw [addf_apply, addf_apply, addf_apply,
    tap_apply _ border_zero P6 ![0, 0, 2] slices_S32x130x130_o0_0_2_S32x128x128 0 2 rfl rfl rfl j,
    tap_apply _ border_zero P7 ![0, 0, 1] slices_S32x130x130_o0_0_1_S32x128x128 0 1 rfl rfl rfl j,
    tap_apply _ border_zero P8 ![0, 0, 0] slices_S32x130x130_o0_0_0_S32x128x128 0 0 rfl rfl rfl j]
  simp only [Nat.add_zero]

/-- The block the body leaves, at index y = (0, c, h, w): zero plus the nine canvases, tap (kh, kw) read at (h + 2 − kh, w + 2 − kw), added in tap order. -/
theorem E1_apply (P0 P1 P2 P3 P4 P5 P6 P7 P8 : Vec Ideal S1x32x1x128x128 .f32) (y : S1x32x128x128.Idx) :
    Cert.KernelIdeal.Value.E1 (F := Ideal) P0 P1 P2 P3 P4 P5 P6 P7 P8 y =
      0 + padRead P0 (y 1).val ((y 2).val + 2) ((y 3).val + 2) + padRead P1 (y 1).val ((y 2).val + 2) ((y 3).val + 1)
        + padRead P2 (y 1).val ((y 2).val + 2) (y 3).val
        + padRead P3 (y 1).val ((y 2).val + 1) ((y 3).val + 2) + padRead P4 (y 1).val ((y 2).val + 1) ((y 3).val + 1)
        + padRead P5 (y 1).val ((y 2).val + 1) (y 3).val
        + padRead P6 (y 1).val (y 2).val ((y 3).val + 2) + padRead P7 (y 1).val (y 2).val ((y 3).val + 1)
        + padRead P8 (y 1).val (y 2).val (y 3).val := by
  show k0_pay5 (F := Ideal) (k0_pay4 (k0_pay2 P0 P1) (k0_pay3 P2) P3 P4 P5) P6 P7 P8 (Cert.KernelIdeal.Value.ix1_0 y) = _
  rw [pay5_apply, pay4_apply, pay3_apply, pay2_apply]

end Cert.Fold.Taps

end
-- ==== Proof.KernelValue.lean ====
/-
  The kernel's result array is the fold of its argument.

  The region's input array is the argument reshaped to [16, 64, 9, 128, 128] (batch, channel, tap, patch row, patch column);
  grid point (b, cb) stages channels 32·cb … 32·cb + 31 of batch b, all nine taps, and writes back the same channels of the
  result. Each block the body leaves is the nine-tap sum of its staged slabs on their zero-bordered canvases, which is the
  fold read at the block's indices; the 32 blocks tile the result.
-/
import proofs.«161328_j57363583205829_1_alg».proof.Proof.Gen.KernelIdeal.Value
import proofs.«161328_j57363583205829_1_alg».proof.Proof.Spec
import proofs.«161328_j57363583205829_1_alg».proof.Proof.Taps
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Fold.KernelValue

open Cert.KernelIdeal Cert.KernelIdeal.Gen Cert.KernelIdeal.Value Cert.Fold Cert.Fold.Taps

variable (m : (ℓ : Loc nD τ sig) → Buf (Elt Ideal) ℓ) (ρ : Dev nD → PrngReg)

/-- The region's input array: the argument, reshaped. -/
theorem V_main_v0 (c : Dev nD) :
    (V m c main_v0 : S16x64x9x128x128.Idx → EReal)
      = shapeCast S16x64x9x128x128 (m ((c : Thread nD τ).loc main_arg0) : S16x576x16384.Idx → EReal) shapeCasts_S16x576x16384_S16x64x9x128x128 := by
  dsimp only [Gen.V, Gen.hostOps0]; after_results; rfl

/-- The reshaped argument by coordinates. -/
theorem V_main_v0_apply (c : Dev nD) (b : Fin 16) (ch : Fin 64) (kk : Fin 9) (lh lw : Fin 128) :
    (V m c main_v0 : S16x64x9x128x128.Idx → EReal) (ix5 b ch kk lh lw)
      = rd (m ((c : Thread nD τ).loc main_arg0)) b.val ch.val kk.val lh.val lw.val := by
  rw [V_main_v0]
  have hb := b.isLt; have hc := ch.isLt; have hk := kk.isLt; have hlh := lh.isLt; have hlw := lw.isLt
  unfold rd
  rw [dif_pos ⟨hb, hc, hk, hlh, hlw⟩]
  refine shapeCast_apply _ _ _ _ ?_
  show (S16x576x16384.rowMajor _).val = (S16x64x9x128x128.rowMajor _).val
  rw [Shape.rowMajor_val_three, Shape.rowMajor_val_five]
  show (b.val * 576 + (ch.val * 9 + kk.val)) * 16384 + (lh.val * 128 + lw.val) = (((b.val * 64 + ch.val) * 9 + kk.val) * 128 + lh.val) * 128 + lw.val
  omega

/-- The two index maps over the 32 grid points: the input block moves with the output block on batch and channel tile, and
    neither moves on the other axes. -/
theorem idx_facts : ∀ t : Fin cfg0.N,
    win0_0.index t (0 : Fin 5) = win0_1.index t (0 : Fin 4) ∧ win0_0.index t (1 : Fin 5) = win0_1.index t (1 : Fin 4)
    ∧ win0_0.index t (2 : Fin 5) = 0 ∧ win0_0.index t (3 : Fin 5) = 0 ∧ win0_0.index t (4 : Fin 5) = 0
    ∧ win0_1.index t (2 : Fin 4) = 0 ∧ win0_1.index t (3 : Fin 4) = 0
    ∧ win0_1.index t (0 : Fin 4) < 16 ∧ win0_1.index t (1 : Fin 4) < 2 :=
  (by decide +kernel : ∀ t : Fin grid0.N, _)

/-- Every (batch, channel tile) pair is some grid point's. -/
theorem idx_onto : ∀ (q0 : Fin 16) (q1 : Fin 2), ∃ t : Fin cfg0.N,
    win0_1.index t (0 : Fin 4) = q0.val ∧ win0_1.index t (1 : Fin 4) = q1.val :=
  (by decide +kernel : ∀ (q0 : Fin 16) (q1 : Fin 2), ∃ t : Fin grid0.N, win0_1.index t (0 : Fin 4) = q0.val ∧ win0_1.index t (1 : Fin 4) = q1.val)

/-- The staged input block at a point, by coordinates: channels 32·cb … 32·cb + 31 of batch b of the argument. -/
theorem iblk_apply (c : Dev nD) (t : Fin cfg0.N) (z : S1x32x9x128x128.Idx) :
    (iblk m c 0 t : Vec Ideal S1x32x9x128x128 .f32) z
      = rd (m ((c : Thread nD τ).loc main_arg0)) (win0_1.index t (0 : Fin 4)) (win0_1.index t (1 : Fin 4) * 32 + (z 1).val) (z 2).val (z 3).val (z 4).val := by
  obtain ⟨e0, e1, e2, e3, e4, e5, e6, e7, e8⟩ := idx_facts t
  have h0 : (z 0).val < 1 := (z 0).isLt
  have h1 : (z 1).val < 32 := (z 1).isLt
  have h2 : (z 2).val < 9 := (z 2).isLt
  have h3 : (z 3).val < 128 := (z 3).isLt
  have h4 : (z 4).val < 128 := (z 4).isLt
  unfold iblk
  rw [View.read_apply]
  show (V m c main_v0 : S16x64x9x128x128.Idx → EReal) (((cfg0.win 0).blk t).view.emb z) = _
  have hemb : ((cfg0.win 0).blk t).view.emb z
      = ix5 (⟨win0_1.index t (0 : Fin 4), e7⟩ : Fin 16) (⟨win0_1.index t (1 : Fin 4) * 32 + (z 1).val, by omega⟩ : Fin 64)
          (⟨(z 2).val, h2⟩ : Fin 9) (⟨(z 3).val, h3⟩ : Fin 128) (⟨(z 4).val, h4⟩ : Fin 128) := by
    funext a; apply Fin.ext
    match a with
    | ⟨0, _⟩ => show win0_0.index t (0 : Fin 5) * 1 + 1 * (z 0).val = win0_1.index t (0 : Fin 4); omega
    | ⟨1, _⟩ => show win0_0.index t (1 : Fin 5) * 32 + 1 * (z 1).val = win0_1.index t (1 : Fin 4) * 32 + (z 1).val; omega
    | ⟨2, _⟩ => show win0_0.index t (2 : Fin 5) * 9 + 1 * (z 2).val = (z 2).val; omega
    | ⟨3, _⟩ => show win0_0.index t (3 : Fin 5) * 128 + 1 * (z 3).val = (z 3).val; omega
    | ⟨4, _⟩ => show win0_0.index t (4 : Fin 5) * 128 + 1 * (z 4).val = (z 4).val; omega
  rw [hemb, V_main_v0_apply]

/-- Tap k's slab of the staged block on its zero-bordered canvas: canvas cell (i, j) of channel cc is patch (i − 1, j − 1) of
    tap k of channel 32·cb + cc of the argument (zero on the border, where no patch is). -/
theorem padRead_ld (c : Dev nD) (t : Fin cfg0.N) (off : Fin 5 → Nat)
    (inb : ∀ a, off a + S1x32x1x128x128.size a ≤ S1x32x9x128x128.size a) (k : Nat)
    (o0 : off 0 = 0) (o1 : off 1 = 0) (o2 : off 2 = k) (o3 : off 3 = 0) (o4 : off 4 = 0) (cc i j : Nat) (hcc : cc < 32) :
    padRead (View.ld (iblk m c 0 t : Vec Ideal S1x32x9x128x128 .f32) (Rect.unit (s := S1x32x9x128x128) off S1x32x1x128x128.size inb)) cc i j
      = if 1 ≤ i ∧ 1 ≤ j then
          rd (m ((c : Thread nD τ).loc main_arg0)) (win0_1.index t (0 : Fin 4)) (win0_1.index t (1 : Fin 4) * 32 + cc) k (i - 1) (j - 1)
        else 0 := by
  unfold padRead
  by_cases h : cc < 32 ∧ 1 ≤ i ∧ i ≤ 128 ∧ 1 ≤ j ∧ j ≤ 128
  · rw [dif_pos h, if_pos ⟨h.2.1, h.2.2.2.1⟩]
    show (iblk m c 0 t : Vec Ideal S1x32x9x128x128 .f32) ((Rect.unit (s := S1x32x9x128x128) off S1x32x1x128x128.size inb).emb _) = _
    rw [iblk_apply]
    congr 1
    · show win0_1.index t (1 : Fin 4) * 32 + (off 1 + 1 * cc) = _; omega
    · show off 3 + 1 * (i - 1) = _; omega
    · show off 4 + 1 * (j - 1) = _; omega
  · rw [dif_neg h]
    by_cases h' : 1 ≤ i ∧ 1 ≤ j
    · rw [if_pos h', rd_eq_zero]; omega
    · rw [if_neg h']

/-- One canvas read is one tap: canvas cell (i, j) = (h + 2 − kh, w + 2 − kw) of tap (kh, kw) is patch (h + 1 − kh, w + 1 − kw), and it
    is off the border's near side exactly when kh ≤ h + 1 and kw ≤ w + 1. -/
theorem tap_eq (x : SIn.Idx → EReal) (b ch h w : Nat) (T : Nat → Nat → Nat → EReal)
    (hT : ∀ k i j, T k i j = if 1 ≤ i ∧ 1 ≤ j then rd x b ch k (i - 1) (j - 1) else 0)
    (kh kw : Fin 3) (k i j : Nat) (hk : k = 3 * kh.val + kw.val) (hi : i + kh.val = h + 2) (hj : j + kw.val = w + 2) :
    T k i j = tap x b ch h w kh kw := by
  rw [hT, hk]; unfold tap
  by_cases hc : kh.val ≤ h + 1 ∧ kw.val ≤ w + 1
  · rw [if_pos hc, if_pos (by omega)]
    congr 1 <;> omega
  · rw [if_neg hc, if_neg (by omega)]

/-- The nine canvases read at an output cell, added in tap order from zero, are the nine taps of the fold. -/
theorem taps_sum (x : SIn.Idx → EReal) (b ch h w : Nat) (T : Nat → Nat → Nat → EReal)
    (hT : ∀ k i j, T k i j = if 1 ≤ i ∧ 1 ≤ j then rd x b ch k (i - 1) (j - 1) else 0) :
    0 + T 0 (h + 2) (w + 2) + T 1 (h + 2) (w + 1) + T 2 (h + 2) w + T 3 (h + 1) (w + 2) + T 4 (h + 1) (w + 1) + T 5 (h + 1) w
        + T 6 h (w + 2) + T 7 h (w + 1) + T 8 h w
      = ∑ kh : Fin 3, ∑ kw : Fin 3, tap x b ch h w kh kw := by
  rw [tap_eq x b ch h w T hT 0 0 0 (h + 2) (w + 2) (by rfl) (by rfl) (by rfl),
    tap_eq x b ch h w T hT 0 1 1 (h + 2) (w + 1) (by rfl) (by rfl) (by rfl),
    tap_eq x b ch h w T hT 0 2 2 (h + 2) w (by rfl) (by rfl) (by rfl),
    tap_eq x b ch h w T hT 1 0 3 (h + 1) (w + 2) (by rfl) (by rfl) (by rfl),
    tap_eq x b ch h w T hT 1 1 4 (h + 1) (w + 1) (by rfl) (by rfl) (by rfl),
    tap_eq x b ch h w T hT 1 2 5 (h + 1) w (by rfl) (by rfl) (by rfl),
    tap_eq x b ch h w T hT 2 0 6 h (w + 2) (by rfl) (by rfl) (by rfl),
    tap_eq x b ch h w T hT 2 1 7 h (w + 1) (by rfl) (by rfl) (by rfl),
    tap_eq x b ch h w T hT 2 2 8 h w (by rfl) (by rfl) (by rfl)]
  simp only [Fin.sum_univ_three, zero_add, add_assoc]

/-- What a grid point writes back is its block of the fold of the argument. -/
theorem flushed_eq (c : Dev nD) (t : Fin cfg0.N) :
    (dats m 0 c).flushed 1 t = ((cfg0.win 1).blk t).view.read (Elt Ideal) (G (m ((c : Thread nD τ).loc main_arg0))) := by
  rw [Value.flushed1]
  obtain ⟨e0, e1, e2, e3, e4, e5, e6, e7, e8⟩ := idx_facts t
  refine funext fun (y : S1x32x128x128.Idx) => ?_
  have h0 : (y 0).val < 1 := (y 0).isLt
  have h1 : (y 1).val < 32 := (y 1).isLt
  have h2 : (y 2).val < 128 := (y 2).isLt
  have h3 : (y 3).val < 128 := (y 3).isLt
  show out0_1 (iblk m c 0 t) y = G (m ((c : Thread nD τ).loc main_arg0)) (((cfg0.win 1).blk t).view.emb y)
  unfold out0_1
  rw [Value.canon1_eq, Taps.E1_apply]
  let T : Nat → Nat → Nat → EReal := fun k i j => if 1 ≤ i ∧ 1 ≤ j then rd (m ((c : Thread nD τ).loc main_arg0)) (win0_1.index t (0 : Fin 4)) (win0_1.index t (1 : Fin 4) * 32 + (y 1).val) k (i - 1) (j - 1) else 0
  have a0 : padRead (View.ld (iblk m c 0 t) r0_0) (y 1).val ((y 2).val + 2) ((y 3).val + 2) = T 0 ((y 2).val + 2) ((y 3).val + 2) :=
    padRead_ld m c t ![0, 0, 0, 0, 0] inb_S1x32x9x128x128_S1x32x1x128x128_0_0_0_0_0 0 rfl rfl rfl rfl rfl (y 1).val ((y 2).val + 2) ((y 3).val + 2) h1
  have a1 : padRead (View.ld (iblk m c 0 t) r0_1) (y 1).val ((y 2).val + 2) ((y 3).val + 1) = T 1 ((y 2).val + 2) ((y 3).val + 1) :=
    padRead_ld m c t ![0, 0, 1, 0, 0] inb_S1x32x9x128x128_S1x32x1x128x128_0_0_1_0_0 1 rfl rfl rfl rfl rfl (y 1).val ((y 2).val + 2) ((y 3).val + 1) h1
  have a2 : padRead (View.ld (iblk m c 0 t) r0_2) (y 1).val ((y 2).val + 2) ((y 3).val) = T 2 ((y 2).val + 2) ((y 3).val) :=
    padRead_ld m c t ![0, 0, 2, 0, 0] inb_S1x32x9x128x128_S1x32x1x128x128_0_0_2_0_0 2 rfl rfl rfl rfl rfl (y 1).val ((y 2).val + 2) ((y 3).val) h1
  have a3 : padRead (View.ld (iblk m c 0 t) r0_3) (y 1).val ((y 2).val + 1) ((y 3).val + 2) = T 3 ((y 2).val + 1) ((y 3).val + 2) :=
    padRead_ld m c t ![0, 0, 3, 0, 0] inb_S1x32x9x128x128_S1x32x1x128x128_0_0_3_0_0 3 rfl rfl rfl rfl rfl (y 1).val ((y 2).val + 1) ((y 3).val + 2) h1
  have a4 : padRead (View.ld (iblk m c 0 t) r0_4) (y 1).val ((y 2).val + 1) ((y 3).val + 1) = T 4 ((y 2).val + 1) ((y 3).val + 1) :=
    padRead_ld m c t ![0, 0, 4, 0, 0] inb_S1x32x9x128x128_S1x32x1x128x128_0_0_4_0_0 4 rfl rfl rfl rfl rfl (y 1).val ((y 2).val + 1) ((y 3).val + 1) h1
  have a5 : padRead (View.ld (iblk m c 0 t) r0_5) (y 1).val ((y 2).val + 1) ((y 3).val) = T 5 ((y 2).val + 1) ((y 3).val) :=
    padRead_ld m c t ![0, 0, 5, 0, 0] inb_S1x32x9x128x128_S1x32x1x128x128_0_0_5_0_0 5 rfl rfl rfl rfl rfl (y 1).val ((y 2).val + 1) ((y 3).val) h1
  have a6 : padRead (View.ld (iblk m c 0 t) r0_6) (y 1).val ((y 2).val) ((y 3).val + 2) = T 6 ((y 2).val) ((y 3).val + 2) :=
    padRead_ld m c t ![0, 0, 6, 0, 0] inb_S1x32x9x128x128_S1x32x1x128x128_0_0_6_0_0 6 rfl rfl rfl rfl rfl (y 1).val ((y 2).val) ((y 3).val + 2) h1
  have a7 : padRead (View.ld (iblk m c 0 t) r0_7) (y 1).val ((y 2).val) ((y 3).val + 1) = T 7 ((y 2).val) ((y 3).val + 1) :=
    padRead_ld m c t ![0, 0, 7, 0, 0] inb_S1x32x9x128x128_S1x32x1x128x128_0_0_7_0_0 7 rfl rfl rfl rfl rfl (y 1).val ((y 2).val) ((y 3).val + 1) h1
  have a8 : padRead (View.ld (iblk m c 0 t) r0_8) (y 1).val ((y 2).val) ((y 3).val) = T 8 ((y 2).val) ((y 3).val) :=
    padRead_ld m c t ![0, 0, 8, 0, 0] inb_S1x32x9x128x128_S1x32x1x128x128_0_0_8_0_0 8 rfl rfl rfl rfl rfl (y 1).val ((y 2).val) ((y 3).val) h1
  show 0 + padRead (View.ld (iblk m c 0 t) r0_0) (y 1).val ((y 2).val + 2) ((y 3).val + 2) + padRead (View.ld (iblk m c 0 t) r0_1) (y 1).val ((y 2).val + 2) ((y 3).val + 1) + padRead (View.ld (iblk m c 0 t) r0_2) (y 1).val ((y 2).val + 2) ((y 3).val) + padRead (View.ld (iblk m c 0 t) r0_3) (y 1).val ((y 2).val + 1) ((y 3).val + 2) + padRead (View.ld (iblk m c 0 t) r0_4) (y 1).val ((y 2).val + 1) ((y 3).val + 1) + padRead (View.ld (iblk m c 0 t) r0_5) (y 1).val ((y 2).val + 1) ((y 3).val) + padRead (View.ld (iblk m c 0 t) r0_6) (y 1).val ((y 2).val) ((y 3).val + 2) + padRead (View.ld (iblk m c 0 t) r0_7) (y 1).val ((y 2).val) ((y 3).val + 1) + padRead (View.ld (iblk m c 0 t) r0_8) (y 1).val ((y 2).val) ((y 3).val) = _
  rw [a0, a1, a2, a3, a4, a5, a6, a7, a8]
  have g0 : ((((cfg0.win 1).blk t).view.emb y) 0).val = win0_1.index t (0 : Fin 4) := by
    show win0_1.index t (0 : Fin 4) * 1 + 1 * (y 0).val = _; omega
  have g1 : ((((cfg0.win 1).blk t).view.emb y) 1).val = win0_1.index t (1 : Fin 4) * 32 + (y 1).val := by
    show win0_1.index t (1 : Fin 4) * 32 + 1 * (y 1).val = _; omega
  have g2 : ((((cfg0.win 1).blk t).view.emb y) 2).val = (y 2).val := by
    show win0_1.index t (2 : Fin 4) * 128 + 1 * (y 2).val = _; omega
  have g3 : ((((cfg0.win 1).blk t).view.emb y) 3).val = (y 3).val := by
    show win0_1.index t (3 : Fin 4) * 128 + 1 * (y 3).val = _; omega
  unfold G
  simp only [g0, g1, g2, g3]
  exact taps_sum (m ((c : Thread nD τ).loc main_arg0)) (win0_1.index t (0 : Fin 4)) (win0_1.index t (1 : Fin 4) * 32 + (y 1).val) (y 2).val (y 3).val
    T (fun _ _ _ => rfl)

/-- A cell of the result lies in a grid point's block iff its batch is the point's and its channel is in the point's tile. -/
theorem mem_blk (t : Fin cfg0.N) (i : S16x64x128x128.Idx) :
    i ∈ ((cfg0.win 1).blk t).view.set ↔ ∀ a : Fin 4, win0_1.index t a * S1x32x128x128.size a ≤ (i a).val ∧ (i a).val < win0_1.index t a * S1x32x128x128.size a + S1x32x128x128.size a := by
  show i ∈ ((View.whole main_v1).slice (win0_1.rect t)).set ↔ _
  rw [View.set_slice_whole, Rect.mem_set_unit]
  exact Iff.rfl

/-- The 32 blocks tile the result: cell (b, ch, h, w) is in the block of the point with batch b and channel tile ch / 32. -/
theorem cover (i : S16x64x128x128.Idx) : ∃ t : Fin cfg0.N, (cfg0.win 1).flush t = true ∧ i ∈ ((cfg0.win 1).blk t).view.set := by
  have hi0 : (i 0).val < 16 := (i 0).isLt
  have hi1 : (i 1).val < 64 := (i 1).isLt
  have hi2 : (i 2).val < 128 := (i 2).isLt
  have hi3 : (i 3).val < 128 := (i 3).isLt
  obtain ⟨t, q0, q1⟩ := idx_onto ⟨(i 0).val, hi0⟩ ⟨(i 1).val / 32, by omega⟩
  obtain ⟨e0, e1, e2, e3, e4, e5, e6, e7, e8⟩ := idx_facts t
  have q0' : win0_1.index t (0 : Fin 4) = (i 0).val := q0
  have q1' : win0_1.index t (1 : Fin 4) = (i 1).val / 32 := q1
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 32 ≤ (i 1).val ∧ (i 1).val < win0_1.index t (1 : Fin 4) * 32 + 32; omega
  | ⟨2, _⟩ => show win0_1.index t (2 : Fin 4) * 128 ≤ (i 2).val ∧ (i 2).val < win0_1.index t (2 : Fin 4) * 128 + 128; omega
  | ⟨3, _⟩ => show win0_1.index t (3 : Fin 4) * 128 ≤ (i 3).val ∧ (i 3).val < win0_1.index t (3 : Fin 4) * 128 + 128; omega

/-- So the result array ends holding the fold of the argument. -/
theorem final (c : Dev nD) : (dats m 0 c).arrAt 1 cfg0.N = G (m ((c : Thread nD τ).loc main_arg0)) :=
  (dats m 0 c).arrAt_eq_of_cover 1 (G (m ((c : Thread nD τ).loc main_arg0))) (fun t _ => flushed_eq m c t) cover

/-- The kernel's run, read: the result array is the fold of the argument, the argument unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.Fold.KernelValue

end
-- ==== Proof.ScatterRead.lean ====
/-
  The reference's accumulating scatter read at one element.

  The scatter adds update element (b, c, n) of a [16, 64, 147456] array into operand element (b, c, idx n) of a
  [16, 64, 16900] array: the two leading axes are window axes carried over unchanged, the last operand axis is the one
  the index column names (read signed, not clamped; an index outside 0 … 16899 drops the update). So the result at
  (b, c, p) is the operand there plus the sum of the updates (b, c, n) over the positions n whose index is p.
-/
import proofs.«161328_j57363583205829_1_alg».proof.ReferenceIdeal
import Idealize.ShloMosaic.PureOps.Ideal
import Idealize.ShloMosaic.Lib.ValueIdx

noncomputable section

open scoped BigOperators

namespace Cert.Fold.ScatterRead

open Idealize.ShloMosaic Idealize.ShloMosaic.ValueIdx Cert.ReferenceIdeal

/-! ## The window coordinate and the start, for any scatter record -/

/-- The window coordinate on a kept operand axis is the update's coordinate on the window axis in the same position. -/
theorem window_of_mem {s si u : Shape} (d : ScatterDims s si u) (j : u.Idx) (a : Fin s.rank) (k : Nat)
    (hk : k < d.updateWindowDims.length) (ha : a ∈ d.sKept) (hidx : d.sKept.idxOf a = k) :
    d.window j a = (j (d.updateWindowDims[k])).val := by
  unfold ScatterDims.window
  rw [dif_pos ha]
  subst hidx
  rfl

/-- The window coordinate on an inserted operand axis is zero. -/
theorem window_of_not_mem {s si u : Shape} (d : ScatterDims s si u) (j : u.Idx) (a : Fin s.rank) (ha : a ∉ d.sKept) :
    d.window j a = 0 := by
  unfold ScatterDims.window
  rw [dif_neg ha]

/-- The start on an operand axis the index map does not name is zero. -/
theorem start_of_not_mem {s si u : Shape} (d : ScatterDims s si u) {w : Nat} (j : u.Idx) (idx : IVec si w) (a : Fin s.rank)
    (ha : a ∉ d.scatterDimsToOperandDims) : d.start j idx a = 0 := by
  unfold ScatterDims.start
  rw [dif_neg ha]

/-- The start on an operand axis the index map names is the index component read for it, signed. -/
theorem start_of_mem {s si u : Shape} (d : ScatterDims s si u) {w : Nat} (j : u.Idx) (idx : IVec si w) (a : Fin s.rank)
    (ha : a ∈ d.scatterDimsToOperandDims) :
    d.start j idx a = (idx (d.siIdx j ⟨d.scatterDimsToOperandDims.idxOf a, List.idxOf_lt_length_iff.2 ha⟩)).toInt := by
  unfold ScatterDims.start
  rw [dif_pos ha]

/-! ## This scatter: window axes 0 and 1, inserted axis 2, index column naming operand axis 2

The operand's kept axes are [0, 1] (axis 2 is inserted) and the window axes are [0, 1], so the window coordinate is
the update's own coordinate on axes 0 and 1 and zero on axis 2. The index map is [2], so the start is zero on axes
0 and 1 and, on axis 2, the index read at row (j 2), column 0. The side conditions below are memberships and
positions in these literal lists of at most three axes. -/

section
variable [Cert.ReferenceIdeal.Facts]

local notation "dd" => scatter_S16x64x16900_S147456x1_S16x64x147456_01_2_2_1

theorem window0 (j : S16x64x147456.Idx) : (dd).window j (0 : Fin 3) = (j 0).val :=
  window_of_mem dd j (0 : Fin 3) 0 (show 0 < ([0, 1] : List (Fin S16x64x147456.rank)).length by decide)
    (show (0 : Fin S16x64x16900.rank) ∈ S16x64x16900.kept [2] by decide)
    (show (S16x64x16900.kept [2]).idxOf (0 : Fin S16x64x16900.rank) = 0 by decide)

theorem window1 (j : S16x64x147456.Idx) : (dd).window j (1 : Fin 3) = (j 1).val :=
  window_of_mem dd j (1 : Fin 3) 1 (show 1 < ([0, 1] : List (Fin S16x64x147456.rank)).length by decide)
    (show (1 : Fin S16x64x16900.rank) ∈ S16x64x16900.kept [2] by decide)
    (show (S16x64x16900.kept [2]).idxOf (1 : Fin S16x64x16900.rank) = 1 by decide)

theorem window2 (j : S16x64x147456.Idx) : (dd).window j (2 : Fin 3) = 0 :=
  window_of_not_mem dd j (2 : Fin 3) (show (2 : Fin S16x64x16900.rank) ∉ S16x64x16900.kept [2] by decide)

theorem start0 (j : S16x64x147456.Idx) (idx : IVec S147456x1 32) : (dd).start j idx (0 : Fin 3) = 0 :=
  start_of_not_mem dd j idx (0 : Fin 3) (show (0 : Fin S16x64x16900.rank) ∉ ([2] : List (Fin S16x64x16900.rank)) by decide)

theorem start1 (j : S16x64x147456.Idx) (idx : IVec S147456x1 32) : (dd).start j idx (1 : Fin 3) = 0 :=
  start_of_not_mem dd j idx (1 : Fin 3) (show (1 : Fin S16x64x16900.rank) ∉ ([2] : List (Fin S16x64x16900.rank)) by decide)

/-- The place where update j reads its one start component: row (j 2) of the index column. On the indices' axis 0
    (the one that is not the index vector's) it is j's coordinate on the updates' only scatter axis, axis 2; on
    axis 1 it is the component number, 0. -/
theorem siIdx0 (j : S16x64x147456.Idx) (h : 0 < (dd).scatterDimsToOperandDims.length) :
    (dd).siIdx j ⟨0, h⟩ = ix2 (j 2) (0 : Fin 1) := by
  funext b
  match b with
  | ⟨0, _⟩ => rfl
  | ⟨1, _⟩ => rfl

theorem start2 (j : S16x64x147456.Idx) (idx : IVec S147456x1 32) :
    (dd).start j idx (2 : Fin 3) = (idx (ix2 (j 2) (0 : Fin 1))).toInt := by
  have hm : (2 : Fin S16x64x16900.rank) ∈ (dd).scatterDimsToOperandDims :=
    show (2 : Fin S16x64x16900.rank) ∈ ([2] : List (Fin S16x64x16900.rank)) by decide
  rw [start_of_mem dd j idx (2 : Fin 3) hm]
  have hi : (dd).scatterDimsToOperandDims.idxOf (2 : Fin S16x64x16900.rank) = 0 :=
    show ([2] : List (Fin S16x64x16900.rank)).idxOf (2 : Fin S16x64x16900.rank) = 0 by decide
  have h0 : 0 < (dd).scatterDimsToOperandDims.length :=
    show 0 < ([2] : List (Fin S16x64x16900.rank)).length by decide
  have : (⟨(dd).scatterDimsToOperandDims.idxOf (2 : Fin S16x64x16900.rank), List.idxOf_lt_length_iff.2 hm⟩ :
      Fin (dd).scatterDimsToOperandDims.length) = ⟨0, h0⟩ := Fin.ext hi
  rw [this, siIdx0 j h0]
  rfl

/-- An update lands on operand element (b, c, p) exactly when its two window coordinates are b and c and the index
    read at its third coordinate, signed, is p: the landing place is (j 0, j 1, index), inside the operand on the
    first two axes always and on the third exactly when the index is in 0 … 16899. -/
theorem resultIdx_eq_some_iff (idx : IVec S147456x1 32) (j : S16x64x147456.Idx) (b : Fin 16) (c : Fin 64) (p : Fin 16900) :
    (dd).resultIdx? j idx = some (ix3 b c p) ↔
      j 0 = b ∧ j 1 = c ∧ (idx (ix2 (j 2) (0 : Fin 1))).toInt = (p.val : ℤ) := by
  have hj0 : (j 0).val < 16 := (j 0).isLt
  have hj1 : (j 1).val < 64 := (j 1).isLt
  have hp : p.val < 16900 := p.isLt
  unfold ScatterDims.resultIdx?
  constructor
  · intro h
    split at h
    · rename_i hall
      have hf := Option.some.inj h
      have e0 := congrArg (fun f : S16x64x16900.Idx => (f 0).val) hf
      have e1 := congrArg (fun f : S16x64x16900.Idx => (f 1).val) hf
      have e2 := congrArg (fun f : S16x64x16900.Idx => (f 2).val) hf
      have h2 := hall 2
      simp only [start0, start1, start2, window0, window1, window2] at e0 e1 e2 h2
      refine ⟨Fin.ext ?_, Fin.ext ?_, ?_⟩
      · change _ = b.val at e0 ⊢
        omega
      · change _ = c.val at e1 ⊢
        omega
      · change _ = p.val at e2
        omega
    · exact absurd h (by simp)
  · rintro ⟨h0, h1, h2⟩
    have hall : ∀ a, 0 ≤ (dd).start j idx a + (dd).window j a ∧ (dd).start j idx a + (dd).window j a < S16x64x16900.size a := by
      intro a
      match a with
      | ⟨0, _⟩ =>
        show 0 ≤ (dd).start j idx (0 : Fin 3) + (dd).window j (0 : Fin 3) ∧ (dd).start j idx (0 : Fin 3) + (dd).window j (0 : Fin 3) < (16 : ℤ)
        rw [start0, window0]; omega
      | ⟨1, _⟩ =>
        show 0 ≤ (dd).start j idx (1 : Fin 3) + (dd).window j (1 : Fin 3) ∧ (dd).start j idx (1 : Fin 3) + (dd).window j (1 : Fin 3) < (64 : ℤ)
        rw [start1, window1]; omega
      | ⟨2, _⟩ =>
        show 0 ≤ (dd).start j idx (2 : Fin 3) + (dd).window j (2 : Fin 3) ∧ (dd).start j idx (2 : Fin 3) + (dd).window j (2 : Fin 3) < (16900 : ℤ)
        rw [start2, window2, h2]; omega
    rw [dif_pos hall]
    congr 1
    funext a
    match a with
    | ⟨0, _⟩ =>
      apply Fin.ext
      show ((dd).start j idx (0 : Fin 3) + (dd).window j (0 : Fin 3)).toNat = b.val
      rw [start0, window0, ← h0]; omega
    | ⟨1, _⟩ =>
      apply Fin.ext
      show ((dd).start j idx (1 : Fin 3) + (dd).window j (1 : Fin 3)).toNat = c.val
      rw [start1, window1, ← h1]; omega
    | ⟨2, _⟩ =>
      apply Fin.ext
      show ((dd).start j idx (2 : Fin 3) + (dd).window j (2 : Fin 3)).toNat = p.val
      rw [start2, window2, h2]; omega

end

/-- The updates that land on (b, c, p) are the (b, c, n) with index p at n: the two sums correspond under
    j ↦ j 2, n ↦ (b, c, n). -/
theorem scatter_read [Cert.ReferenceIdeal.Facts] (x : S16x64x16900.Idx → EReal) (idx : IVec S147456x1 32) (upd : S16x64x147456.Idx → EReal)
    (b : Fin 16) (c : Fin 64) (p : Fin 16900) :
    Ideal.hostScatterAdd scatter_S16x64x16900_S147456x1_S16x64x147456_01_2_2_1 x idx upd (ix3 b c p)
      = x (ix3 b c p) + ∑ n ∈ Finset.univ.filter (fun n : Fin 147456 => (idx (ix2 n (0 : Fin 1))).toInt = (p.val : ℤ)), upd (ix3 b c n) := by
  unfold Ideal.hostScatterAdd
  refine congrArg (fun t => x (ix3 b c p) + t) ?_
  refine Finset.sum_nbij' (fun j : S16x64x147456.Idx => (j 2 : Fin 147456)) (fun n => ix3 b c n) ?_ ?_ ?_ ?_ ?_
  · intro j hj
    have hj' := (Finset.mem_filter.1 hj).2
    exact Finset.mem_filter.2 ⟨Finset.mem_univ _, ((resultIdx_eq_some_iff idx j b c p).1 hj').2.2⟩
  · intro n hn
    have hn' := (Finset.mem_filter.1 hn).2
    exact Finset.mem_filter.2 ⟨Finset.mem_univ _, (resultIdx_eq_some_iff idx (ix3 b c n) b c p).2 ⟨rfl, rfl, hn'⟩⟩
  · intro j hj
    obtain ⟨h0, h1, _⟩ := (resultIdx_eq_some_iff idx j b c p).1 (Finset.mem_filter.1 hj).2
    subst h0 h1
    exact (eq_ix3 j).symm
  · intro n _
    rfl
  · intro j hj
    obtain ⟨h0, h1, _⟩ := (resultIdx_eq_some_iff idx j b c p).1 (Finset.mem_filter.1 hj).2
    subst h0 h1
    exact congrArg upd (eq_ix3 j)

end Cert.Fold.ScatterRead

end
-- ==== Proof.IndexVector.lean ====
/-
  The reference's index column, entry by entry.

  Position n of the flattened [3, 3, 128, 128] index array has coordinates kh = n / 49152, kw = n / 16384 % 3,
  lh = n / 128 % 128, lw = n % 128, and holds the flat position (kh + lh)·130 + (kw + lw) of canvas cell
  (lh + kh, lw + kw) on the 130×130 canvas: a number below 16900, so the wrap-around of negative indices never applies.
-/
import proofs.«161328_j57363583205829_1_alg».proof.Proof.Gen.ReferenceIdeal.Read
import Idealize.ShloMosaic.Lib.ValueIdx

noncomputable section

namespace Cert.Fold.IndexVector

open Idealize.ShloMosaic Idealize.ShloMosaic.ValueIdx Cert.ReferenceIdeal Cert.ReferenceIdeal.Read

/-- The reshaped index array at flat position i: the word of (kh + lh)·130 + (kw + lw) for the coordinates
    kh = i / 49152, kw = i / 16384 % 3, lh = i / 128 % 128, lw = i % 128 (the word operations are ring operations on
    32-bit words, and the word of a sum or product is the sum or product of the words). -/
theorem v29_read {F : FTy → Type} [FloatOps F] (i : S147456.Idx) :
    val_main_v29 (F := F) i
      = BitVec.ofNat 32 (((i 0).val / 49152 + (i 0).val / 128 % 128) * 130 + ((i 0).val / 16384 % 3 + (i 0).val % 128)) := by
  simp only [val_main_v29_apply, val_main_v28_apply, val_main_v26_apply, val_main_v27_apply, val_main_v24_apply,
    val_main_v25_apply, val_main_v22_apply, val_main_v23_apply, val_main_c_3_apply, val_main_v21_apply,
    val_main_v19_apply, val_main_v20_apply, val_main_v14_apply, val_main_v18_apply, val_main_v12_apply,
    val_main_v13_apply, val_main_v16_apply, val_main_v17_apply, val_main_v11_apply, val_main_v15_apply,
    val_main_c_1_apply, val_main_c_2_apply, val_main_v10_apply, val_main_v8_apply, val_main_v9_apply,
    val_main_v3_apply, val_main_v7_apply, val_main_v1_apply, val_main_v2_apply, val_main_v5_apply,
    val_main_v6_apply, val_main_v0_apply, val_main_v4_apply, val_main_c_apply, val_main_c_0_apply]
  simp only [IntOp.addi, IntOp.muli, BitVec.mul_one, BitVec.ofNat_add, BitVec.ofNat_mul]

/-- A 32-bit word of a natural number below 2^31 is non-negative as a signed integer, and is that number. -/
theorem toInt_ofNat_small (N : ℕ) (hN : N < 2147483648) : (BitVec.ofNat 32 N).toInt = (N : ℤ) := by
  have h1 : (BitVec.ofNat 32 N).toNat = N := by
    rw [BitVec.toNat_ofNat]; exact Nat.mod_eq_of_lt (by omega)
  rw [BitVec.toInt_eq_toNat_of_lt (by rw [h1]; omega), h1]

/-- Signed "less than zero" is false on the word of a natural number below 2^31. -/
theorem cmpi_slt_zero_of_small (N : ℕ) (hN : N < 2147483648) :
    IntOp.cmpi .slt (BitVec.ofNat 32 N) 0#32 = 0#1 := by
  have h := toInt_ofNat_small N hN
  have hs : (BitVec.ofNat 32 N).slt 0#32 = false := by
    rw [BitVec.slt, h, BitVec.toInt_zero]
    exact decide_eq_false (by omega)
  show BitVec.ofBool ((BitVec.ofNat 32 N).slt 0#32) = 0#1
  rw [hs]; rfl

theorem index_vector (n : Fin 147456) :
    (val_main_v37 (F := Ideal) (ix2 n (0 : Fin 1))).toInt
      = (((n.val / 49152 + n.val / 128 % 128) * 130 + (n.val / 16384 % 3 + n.val % 128) : ℕ) : ℤ) := by
  -- The position's word is below 16900 < 2^31, so it is not negative and the wrap-around branch is not taken.
  have hN : (n.val / 49152 + n.val / 128 % 128) * 130 + (n.val / 16384 % 3 + n.val % 128) < 2147483648 := by
    have := n.isLt; omega
  have hi : ((idx_main_v37 (ix2 n (0 : Fin 1))) 0).val = n.val := rfl
  rw [val_main_v37_apply, val_main_v36_apply, val_main_v33_apply, val_main_v32_apply, val_main_c_4_apply, v29_read, hi,
    cmpi_slt_zero_of_small _ hN, select_zero, toInt_ofNat_small _ hN]

end Cert.Fold.IndexVector

end
-- ==== Proof.LibFoldSum.lean ====
/-
  The overlap-add of 3×3 patches on a 130×130 canvas, as a sum over flat patch-entry positions, is the sum of nine taps.
-/
import Mathlib

open scoped BigOperators

namespace Cert.Fold

/-- The coordinates of the flat position ((a·3 + b)·128 + c)·128 + d, for a, b < 3 and c, d < 128, are a, b, c, d. -/
theorem coords_of_flat (a b c d : ℕ) (ha : a < 3) (hb : b < 3) (hc : c < 128) (hd : d < 128) :
    (((a * 3 + b) * 128 + c) * 128 + d) / 49152 = a ∧ (((a * 3 + b) * 128 + c) * 128 + d) / 16384 % 3 = b ∧
      (((a * 3 + b) * 128 + c) * 128 + d) / 128 % 128 = c ∧ (((a * 3 + b) * 128 + c) * 128 + d) % 128 = d := by
  refine ⟨by omega, by omega, by omega, by omega⟩

/-- Over any additive commutative monoid: let position n < 3·3·128·128 have coordinates kh = n / 49152, kw = n / 16384 % 3,
    lh = n / 128 % 128, lw = n % 128 and land on canvas cell (kh + lh)·130 + (kw + lw). The sum of g over the positions
    landing on cell (h + 1)·130 + (w + 1), for h, w < 128, is the sum over the nine taps (kh, kw) of g at patch
    (h + 1 − kh, w + 1 − kw), where that patch exists (g vanishing where lh or lw is 128 or more). -/
theorem fold_sum {M : Type*} [AddCommMonoid M] (g : ℕ → ℕ → ℕ → M)
    (hg : ∀ kk lh lw, ¬ (lh < 128 ∧ lw < 128) → g kk lh lw = 0) (h w : ℕ) (hh : h < 128) (hw : w < 128) :
    ∑ n ∈ Finset.univ.filter (fun n : Fin 147456 =>
        (n.val / 49152 + n.val / 128 % 128) * 130 + (n.val / 16384 % 3 + n.val % 128) = (h + 1) * 130 + (w + 1)),
        g (n.val / 16384) (n.val / 128 % 128) (n.val % 128)
      = ∑ kh : Fin 3, ∑ kw : Fin 3,
          if kh.val ≤ h + 1 ∧ kw.val ≤ w + 1 then g (3 * kh.val + kw.val) (h + 1 - kh.val) (w + 1 - kw.val) else 0 := by
  -- A tap whose patch is out of range contributes zero, so the tap condition may be sharpened to "the patch exists".
  have hR : ∀ kh kw : Fin 3,
      (if kh.val ≤ h + 1 ∧ kw.val ≤ w + 1 then g (3 * kh.val + kw.val) (h + 1 - kh.val) (w + 1 - kw.val) else 0)
        = if (kh.val ≤ h + 1 ∧ h + 1 - kh.val < 128) ∧ (kw.val ≤ w + 1 ∧ w + 1 - kw.val < 128)
            then g (3 * kh.val + kw.val) (h + 1 - kh.val) (w + 1 - kw.val) else 0 := by
    intro kh kw
    by_cases h1 : h + 1 - kh.val < 128 ∧ w + 1 - kw.val < 128
    · have e : (kh.val ≤ h + 1 ∧ kw.val ≤ w + 1)
          ↔ ((kh.val ≤ h + 1 ∧ h + 1 - kh.val < 128) ∧ (kw.val ≤ w + 1 ∧ w + 1 - kw.val < 128)) := by
        constructor
        · rintro ⟨a, b⟩; exact ⟨⟨a, h1.1⟩, ⟨b, h1.2⟩⟩
        · rintro ⟨⟨a, _⟩, ⟨b, _⟩⟩; exact ⟨a, b⟩
      simp only [e]
    · rw [hg _ _ _ h1]; simp
  simp_rw [hR]
  -- The nine taps as one sum over pairs, restricted to the taps whose patch exists.
  rw [← Finset.sum_product', Finset.univ_product_univ, ← Finset.sum_filter]
  -- Positions landing on the cell correspond one-to-one to such taps: n ↦ (kh, kw), with inverse
  -- (kh, kw) ↦ ((kh·3 + kw)·128 + (h + 1 − kh))·128 + (w + 1 − kw).
  refine Finset.sum_nbij'
    (fun n : Fin 147456 => ((⟨n.val / 49152, by omega⟩ : Fin 3), (⟨n.val / 16384 % 3, by omega⟩ : Fin 3)))
    (fun p : Fin 3 × Fin 3 =>
      (⟨((p.1.val * 3 + p.2.val) * 128 + min (h + 1 - p.1.val) 127) * 128 + min (w + 1 - p.2.val) 127, by omega⟩ :
        Fin 147456))
    ?_ ?_ ?_ ?_ ?_
  · intro n hn
    simp only [Finset.mem_filter, Finset.mem_univ, true_and] at hn ⊢
    have := n.isLt
    omega
  · rintro ⟨kh, kw⟩ hp
    simp only [Finset.mem_filter, Finset.mem_univ, true_and] at hp ⊢
    have := kh.isLt
    have := kw.isLt
    have m1 : min (h + 1 - kh.val) 127 = h + 1 - kh.val := Nat.min_eq_left (by omega)
    have m2 : min (w + 1 - kw.val) 127 = w + 1 - kw.val := Nat.min_eq_left (by omega)
    simp only [m1, m2]
    clear m1 m2
    obtain ⟨e1, e2, e3, e4⟩ := coords_of_flat kh.val kw.val (h + 1 - kh.val) (w + 1 - kw.val)
      (by omega) (by omega) (by omega) (by omega)
    rw [e1, e2, e3, e4]
    omega
  · intro n hn
    simp only [Finset.mem_filter, Finset.mem_univ, true_and] at hn
    have := n.isLt
    apply Fin.ext
    simp only
    omega
  · rintro ⟨kh, kw⟩ hp
    simp only [Finset.mem_filter, Finset.mem_univ, true_and] at hp
    have := kh.isLt
    have := kw.isLt
    have m1 : min (h + 1 - kh.val) 127 = h + 1 - kh.val := Nat.min_eq_left (by omega)
    have m2 : min (w + 1 - kw.val) 127 = w + 1 - kw.val := Nat.min_eq_left (by omega)
    refine Prod.ext (Fin.ext ?_) (Fin.ext ?_)
    · simp only [m1, m2]; omega
    · simp only [m1, m2]; omega
  · intro n hn
    simp only [Finset.mem_filter, Finset.mem_univ, true_and] at hn
    have := n.isLt
    have e1 : n.val / 16384 = 3 * (n.val / 49152) + n.val / 16384 % 3 := by omega
    have e2 : n.val / 128 % 128 = h + 1 - n.val / 49152 := by omega
    have e3 : n.val % 128 = w + 1 - n.val / 16384 % 3 := by omega
    simp only
    rw [← e1, ← e2, ← e3]

end Cert.Fold
-- ==== Proof.RefValue.lean ====
/-
  The reference's result is the fold of its argument.

  The reference computes, for every patch entry n = ((kh·3 + kw)·128 + lh)·128 + lw, the flat canvas cell
  (kh + lh)·130 + (kw + lw) it lands on, scatter-adds the argument (reshaped to [16, 64, 147456]) into a zero
  [16, 64, 16900] canvas at those cells, reshapes to 130×130 and crops the one-cell border. Output cell (h, w) is canvas
  cell (h + 1)·130 + (w + 1), so it holds zero plus the sum of the entries landing there: the nine taps of the fold.
-/
import proofs.«161328_j57363583205829_1_alg».proof.Proof.Gen.ReferenceIdeal.Read
import proofs.«161328_j57363583205829_1_alg».proof.Proof.Spec
import proofs.«161328_j57363583205829_1_alg».proof.Proof.ScatterRead
import proofs.«161328_j57363583205829_1_alg».proof.Proof.IndexVector
import proofs.«161328_j57363583205829_1_alg».proof.Proof.LibFoldSum
import Idealize.ShloMosaic.Lib.ValueIdx
import Idealize.ShloMosaic.PureOps.Ideal.Laws

noncomputable section

open scoped BigOperators

namespace Cert.Fold.RefValue

open Idealize.ShloMosaic Idealize.ShloMosaic.ValueIdx Cert.ReferenceIdeal Cert.ReferenceIdeal.Read Cert.Fold

/-- The reshaped argument by coordinates: entry n of channel c of batch b is tap n / 16384 at patch (n / 128 % 128, n % 128). -/
theorem upd_apply (x : S16x576x16384.Idx → EReal) (b : Fin 16) (c : Fin 64) (n : Fin 147456) :
    val_main_v30 (F := Ideal) x (ix3 b c n) = rd x b.val c.val (n.val / 16384) (n.val / 128 % 128) (n.val % 128) := by
  have hb := b.isLt; have hc := c.isLt; have hn := n.isLt
  rw [val_main_v30_apply]
  unfold rd
  rw [dif_pos ⟨hb, hc, by omega, by omega, by omega⟩]
  congr 1
  funext a; apply Fin.ext
  match a with
  | ⟨0, _⟩ => show ((b.val * 64 + c.val) * 147456 + n.val) / 9437184 = b.val; omega
  | ⟨1, _⟩ => show ((b.val * 64 + c.val) * 147456 + n.val) / 16384 % 576 = c.val * 9 + n.val / 16384; omega
  | ⟨2, _⟩ => show ((b.val * 64 + c.val) * 147456 + n.val) % 16384 = n.val / 128 % 128 * 128 + n.val % 128; omega

/-- The reference's result, index by index, is the fold. -/
theorem ref_is_fold (x : S16x576x16384.Idx → EReal) : val_main_v40 (F := Ideal) x = G x := by
  funext i
  obtain ⟨b, c, h, w, rfl⟩ : ∃ (b : Fin 16) (c : Fin 64) (h w : Fin 128), i = ix4 b c h w := ⟨i 0, i 1, i 2, i 3, eq_ix4 i⟩
  have hb := b.isLt; have hc := c.isLt; have hh := h.isLt; have hw := w.isLt
  rw [val_main_v40_apply, val_main_v39_apply]
  have hidx : idx_main_v39 (idx_main_v40 (ix4 b c h w))
      = ix3 b c (⟨(h.val + 1) * 130 + (w.val + 1), by omega⟩ : Fin 16900) := by
    funext a; apply Fin.ext
    match a with
    | ⟨0, _⟩ => show (((b.val * 64 + c.val) * 130 + (1 + h.val)) * 130 + (1 + w.val)) / 1081600 = b.val; omega
    | ⟨1, _⟩ => show (((b.val * 64 + c.val) * 130 + (1 + h.val)) * 130 + (1 + w.val)) / 16900 % 64 = c.val; omega
    | ⟨2, _⟩ => show (((b.val * 64 + c.val) * 130 + (1 + h.val)) * 130 + (1 + w.val)) % 16900 = (h.val + 1) * 130 + (w.val + 1); omega
  rw [hidx]
  show Ideal.hostScatterAdd scatter_S16x64x16900_S147456x1_S16x64x147456_01_2_2_1 (val_main_v31 (F := Ideal)) (val_main_v37 (F := Ideal))
      (val_main_v30 (F := Ideal) x) (ix3 b c _) = _
  rw [ScatterRead.scatter_read, val_main_v31_apply, val_main_cst_apply]
  show Ideal.ofBits .f32 0x00000000#32 + _ = _
  rw [Ideal.ofBits_zero_f32, zero_add]
  simp only [IndexVector.index_vector, upd_apply, Nat.cast_inj]
  exact fold_sum (fun kk lh lw => rd x b.val c.val kk lh lw) (fun kk lh lw hn => rd_eq_zero x _ _ _ _ _ hn) h.val w.val hh hw

end Cert.Fold.RefValue

end
-- ==== Proof.lean ====
/-
  The fold (col2im) kernel against its scatter-add reference, at the ideal values.

  Both programs compute, from the patch array x[b, c·9 + 3·kh + kw, lh·128 + lw], the overlap-add of 3×3 patches with
  padding 1 and stride 1: output cell (h, w) of channel c is the sum over the nine taps (kh, kw) of the patch at
  (h + 1 − kh, w + 1 − kw), where that position exists (Proof/Spec.lean, `Cert.Fold.G`).
  The kernel adds nine shifted windows of zero-bordered slabs, tile by tile (Proof/Taps.lean: one block at an index;
  Proof/KernelValue.lean: the blocks tile the result). The reference scatter-adds every patch entry onto the flat canvas cell
  it lands on and crops (Proof/IndexVector.lean: the cell of an entry; Proof/ScatterRead.lean: the scatter at one element;
  Proof/LibFoldSum.lean: the entries landing on one cell are the nine taps; Proof/RefValue.lean: the assembly).
  The two sums have the same terms; only commutativity and associativity of the extended reals' addition are used, so the
  inputs' finiteness is never needed. The idealization rewrote nothing, so it preserves the kernel trivially.
-/
import proofs.«161328_j57363583205829_1_alg».proof.Defs
import proofs.«161328_j57363583205829_1_alg».proof.Proof.Gen.Kernel
import proofs.«161328_j57363583205829_1_alg».proof.Proof.Gen.Kernel.Skeleton
import proofs.«161328_j57363583205829_1_alg».proof.Proof.Gen.Kernel.Launch
import proofs.«161328_j57363583205829_1_alg».proof.Proof.Gen.Kernel.Points
import proofs.«161328_j57363583205829_1_alg».proof.Proof.Gen.Kernel.Frame
import proofs.«161328_j57363583205829_1_alg».proof.Proof.Gen.KernelIdeal
import proofs.«161328_j57363583205829_1_alg».proof.Proof.Gen.KernelIdeal.Skeleton
import proofs.«161328_j57363583205829_1_alg».proof.Proof.Gen.KernelIdeal.Launch
import proofs.«161328_j57363583205829_1_alg».proof.Proof.Gen.KernelIdeal.Points
import proofs.«161328_j57363583205829_1_alg».proof.Proof.Gen.KernelIdeal.Frame
import proofs.«161328_j57363583205829_1_alg».proof.Proof.Gen.ReferenceIdeal
import proofs.«161328_j57363583205829_1_alg».proof.Proof.Gen.Pre_finite_inputs
import proofs.«161328_j57363583205829_1_alg».proof.Proof.Gen.KernelIdeal.Value
import proofs.«161328_j57363583205829_1_alg».proof.Proof.Gen.ReferenceIdeal.Run
import proofs.«161328_j57363583205829_1_alg».proof.Proof.Gen.ReferenceIdeal.Read
import proofs.«161328_j57363583205829_1_alg».proof.Proof.KernelValue
import proofs.«161328_j57363583205829_1_alg».proof.Proof.RefValue
import Idealize.ShloMosaic.Adequacy
import Idealize.ShloMosaic.Init

noncomputable section

namespace Cert.Proof

open Idealize.ShloMosaic Idealize.SL.Sem

/-- The word-level kernel runs and leaves its argument unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its argument unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the fold of the (agreeing) argument in their result arrays. -/
theorem algebraic : Cert.algebraic_KernelIdeal_ReferenceIdeal := by
  intro m ρ m' ρ' _ hagree
  refine ⟨fun c => Cert.Fold.G (m ((c.tc : Thread Cert.KernelIdeal.nD Cert.KernelIdeal.τ).loc Cert.KernelIdeal.main_arg0)),
    Cert.Fold.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.Fold.RefValue.ref_is_fold, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
